-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4x2048x4096, .f32⟩
  | .hbm, ⟨5, _⟩ => ⟨S1x1x4096, .f32⟩
  | .hbm, ⟨6, _⟩ => ⟨S4x2048x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.CaseValues.lean ====
/-
  What the body leaves at a grid point, case by case, as values.

  The kernel walks a 4 × 4 × 8 grid; the last axis runs over the eight blocks of 512 of the contraction axis. At every
  point it adds, into an accumulator it keeps between points, the product of the point's [2048, 512] block of the left
  operand with the point's [1024, 512] block of the right one, contracted over the 512. At the first point of a run of
  eight it first sets the accumulator to zero; at the last it also writes `accumulator · scale + bias` to the output
  block. So, whatever the float instance:
    first point of a run     accumulator := step x w 0
    inner points             accumulator := step x w (accumulator before)
    last point               accumulator := step x w (accumulator before);  output := finish (that accumulator) scale bias
  where `step` and `finish` are the body's two arithmetic terms.
-/
import proofs.«177814_j84902913508067_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.PointValue

open Cert.KernelIdeal Cert.KernelIdeal.Gen

variable {F : FTy → Type} [FloatOps F]

theorem zero_offsets : (![0, 0] : Fin 2 → Nat) = fun _ => 0 := funext fun a => by fin_cases a <;> rfl

/-- An inner point of a run leaves in the accumulator one step from what the point before left. -/
theorem acc_inner (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : ¬cond0_0 i) (hc1 : ¬cond0_1 i)
    (x0 : Vec F S2048x512 .f32) (x1 : Vec F S1024x512 .f32) (x2 : Vec F S1x1024 .f32) (x3 : Vec F S1x1024 .f32)
    (xs : Vec F S2048x1024 .f32) :
    sout0_B_0 c i a3 h3 a4 h4 a5 h5 a6 h6 a7 h7 a8 h8 hc0 hc1 x0 x1 x2 x3 xs = k0_pay2 x0 x1 xs := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  rw [View.canon_unit_zero zero_offsets]
  simp only [View.readAt_eq_ld, h3.read_unread, h4.read_unread, h8.read_unread,
    View.ld_unit_zero (S := S2048x512) zero_offsets, View.ld_unit_zero (S := S1024x512) zero_offsets,
    View.ld_unit_zero (S := S2048x1024) zero_offsets]

/-- The first point of a run sets the accumulator to zero, reads it back, and leaves one step from zero. -/
theorem acc_first (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : cond0_0 i) (hc1 : ¬cond0_1 i)
    (x0 : Vec F S2048x512 .f32) (x1 : Vec F S1024x512 .f32) (x2 : Vec F S1x1024 .f32) (x3 : Vec F S1x1024 .f32) :
    sout0_A_0 c i a3 h3 a4 h4 a5 h5 a6 h6 a7 h7 a8 h8 hc0 hc1 x0 x1 x2 x3 = k0_pay2 x0 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) zero_offsets, View.readCov_unit_zero (S := S2048x1024) _ zero_offsets]
  simp only [View.readAt_eq_ld, h3.read_unread, h4.read_unread,
    View.ld_unit_zero (S := S2048x512) zero_offsets, View.ld_unit_zero (S := S1024x512) zero_offsets]

/-- The last point of a run leaves in the accumulator one step from what the point before left … -/
theorem acc_last (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : ¬cond0_0 i) (hc1 : cond0_1 i)
    (x0 : Vec F S2048x512 .f32) (x1 : Vec F S1024x512 .f32) (x2 : Vec F S1x1024 .f32) (x3 : Vec F S1x1024 .f32)
    (xs : Vec F S2048x1024 .f32) :
    sout0_C_0 c i a3 h3 a4 h4 a5 h5 a6 h6 a7 h7 a8 h8 hc0 hc1 x0 x1 x2 x3 xs = k0_pay2 x0 x1 xs := by
  unfold sout0_C_0
  rw [View.read_writes_eq_canon _ _ _ (scover0_C_0 c i a3 h3 a4 h4 a5 h5 a6 h6 a7 h7 a8 h8 hc0 hc1 x0 x1 x2 x3 xs)]
  unfold kernelRun0_C
  dsimp only
  sl_unfold_words
  rw [View.canon_unit_zero (S := S2048x1024) zero_offsets]
  simp only [View.readAt_eq_ld, h3.read_unread, h4.read_unread, h8.read_unread,
    View.ld_unit_zero (S := S2048x512) zero_offsets, View.ld_unit_zero (S := S1024x512) zero_offsets,
    View.ld_unit_zero (S := S2048x1024) zero_offsets]

/-- … and in the output block that accumulator, read back, times the scale row plus the bias row. -/
theorem out_last (c : Dev nD) (i : grid0.Coords) (a3 : Memref sig .tc .vmem S2048x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1x1024 .f32) (h6 : a6.IsWhole) (a7 : Memref sig .tc .vmem S2048x1024 .f32) (h7 : a7.IsWhole)
    (a8 : Memref sig .tc .vmem S2048x1024 .f32) (h8 : a8.IsWhole) (hc0 : ¬cond0_0 i) (hc1 : cond0_1 i)
    (x0 : Vec F S2048x512 .f32) (x1 : Vec F S1024x512 .f32) (x2 : Vec F S1x1024 .f32) (x3 : Vec F S1x1024 .f32)
    (xs : Vec F S2048x1024 .f32) :
    out0_C_4 c i a3 h3 a4 h4 a5 h5 a6 h6 a7 h7 a8 h8 hc0 hc1 x0 x1 x2 x3 xs = k0_pay3 (k0_pay2 x0 x1 xs) x2 x3 := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero (S := S2048x1024) zero_offsets, View.readCov_unit_zero (S := S2048x1024) _ zero_offsets]
  simp only [View.readAt_eq_ld, h3.read_unread, h4.read_unread, h5.read_unread, h6.read_unread, h8.read_unread,
    View.ld_unit_zero (S := S2048x512) zero_offsets, View.ld_unit_zero (S := S1024x512) zero_offsets,
    View.ld_unit_zero (S := S2048x1024) zero_offsets, View.ld_unit_zero (S := S1x1024) zero_offsets]

end Cert.KernelIdeal.PointValue

end
-- ==== Proof.Payload.lean ====
/-
  The body's two arithmetic terms read at an index, over the extended reals.

  `step x w acc` (the accumulating store's value): at row `p`, column `q` of the [2048, 1024] tile it is
      acc(p, q) + Σ_{k < 512} x(p, k) · w(q, k)
  — the narrowing of both operands to bf16 is the identity on extended reals, the matrix unit starts from a zero
  accumulator, and the contraction runs over the second axis of both operands (the right one is used transposed).
  `finish a s b` (the output store's value): at (p, q) it is a(p, q) · s(0, q) + b(0, q): the [1, 1024] rows of scale
  and bias are repeated down the 2048 rows.
-/
import proofs.«177814_j84902913508067_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.PointValue

open Cert.KernelIdeal Cert.KernelIdeal.Gen

/-- The tile product's dimension record: contraction over axis 1 of both operands. -/
abbrev tileDot := dot_S2048x512_S1024x512_S2048x1024_1_1_0_0_n_n

theorem tileDot_lhs_row (j : S2048x1024.Idx) (k : tileDot.contr.Idx) : (tileDot.lhsIdx j k 0).val = (j 0).val := by
  unfold DotDims.lhsIdx
  rw [dif_neg (show ¬(0 : Fin S2048x512.rank) ∈ tileDot.lhsBatch by decide),
    dif_pos (show (0 : Fin S2048x512.rank) ∈ tileDot.lhsNonContracting by decide)]
  rfl
theorem tileDot_lhs_col (j : S2048x1024.Idx) (k : tileDot.contr.Idx) :
    (tileDot.lhsIdx j k 1).val = (k ⟨0, by decide⟩).val :=
  tileDot.lhsIdx_val_of_single rfl j k
theorem tileDot_rhs_row (j : S2048x1024.Idx) (k : tileDot.contr.Idx) : (tileDot.rhsIdx j k 0).val = (j 1).val := by
  unfold DotDims.rhsIdx
  rw [dif_neg (show ¬(0 : Fin S1024x512.rank) ∈ tileDot.rhsBatch by decide),
    dif_pos (show (0 : Fin S1024x512.rank) ∈ tileDot.rhsNonContracting by decide)]
  rfl
theorem tileDot_rhs_col (j : S2048x1024.Idx) (k : tileDot.contr.Idx) :
    (tileDot.rhsIdx j k 1).val = (k ⟨0, by decide⟩).val :=
  tileDot.rhsIdx_val_of_single rfl j k

/-- The tile product from a zero accumulator, at (p, q): the sum over the 512 of x(p, k) · w(q, k). -/
theorem tileProduct_apply (x : FVec Ideal S2048x512 .bf16) (w : FVec Ideal S1024x512 .bf16) (p : Fin 2048) (q : Fin 1024) :
    matmul (F := Ideal) tileDot none x w (constant (F := Ideal) S2048x1024 .f32 0x00000000#32) (ix2 p q)
      = ∑ k : Fin 512, x (ix2 p k) * w (ix2 q k) := by
  show FloatOps.matmul tileDot none x w (constant (F := Ideal) S2048x1024 .f32 0x00000000#32) (ix2 p q) = _
  rw [Ideal.matmul_constant_zero_apply, ← Equiv.sum_comp (ValueIdx.contrEquiv1 tileDot 512 rfl rfl).symm]
  refine Finset.sum_congr rfl fun k _ => ?_
  have hk := ValueIdx.contrEquiv1_symm_val tileDot 512 rfl rfl k
  have el : tileDot.lhsIdx (ix2 p q) ((ValueIdx.contrEquiv1 tileDot 512 rfl rfl).symm k) = ix2 p k :=
    funext fun a => Fin.ext (by
      match a with
      | ⟨0, _⟩ => exact tileDot_lhs_row _ _
      | ⟨1, _⟩ => exact (tileDot_lhs_col _ _).trans hk)
  have er : tileDot.rhsIdx (ix2 p q) ((ValueIdx.contrEquiv1 tileDot 512 rfl rfl).symm k) = ix2 q k :=
    funext fun a => Fin.ext (by
      match a with
      | ⟨0, _⟩ => exact tileDot_rhs_row _ _
      | ⟨1, _⟩ => exact (tileDot_rhs_col _ _).trans hk)
  rw [el, er]

/-- One accumulation step at (p, q). -/
theorem step_apply (x : Vec Ideal S2048x512 .f32) (w : Vec Ideal S1024x512 .f32) (acc : Vec Ideal S2048x1024 .f32)
    (p : Fin 2048) (q : Fin 1024) :
    k0_pay2 (F := Ideal) x w acc (ix2 p q) = acc (ix2 p q) + ∑ k : Fin 512, x (ix2 p k) * w (ix2 q k) := by
  unfold k0_pay2
  simp only [shapeCast_self]
  show acc (ix2 p q) + matmul (F := Ideal) tileDot none _ _ (constant (F := Ideal) S2048x1024 .f32 0x00000000#32) (ix2 p q) = _
  rw [tileProduct_apply]
  rfl

/-- The reset value: zero everywhere. -/
theorem reset_apply (j : S2048x1024.Idx) : k0_pay1 (F := Ideal) j = 0 := by
  unfold k0_pay1
  simp only [shapeCast_self]
  show Ideal.ofBits .f32 0x00000000#32 = 0
  exact Ideal.ofBits_zero_f32

/-- A [1, 1024] row repeated down 2048 rows, at (p, q): the row at (0, q). -/
theorem rowBroadcast_apply (s : FVec Ideal S1x1024 .f32) (p : Fin 2048) (q : Fin 1024) :
    broadcastTo S2048x1024 s broadcasts_S1x1024_S2048x1024 (ix2 p q) = s (ix2 (0 : Fin 1) q) :=
  broadcastTo_apply s broadcasts_S1x1024_S2048x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- The output value at (p, q). -/
theorem finish_apply (a : Vec Ideal S2048x1024 .f32) (s b : Vec Ideal S1x1024 .f32) (p : Fin 2048) (q : Fin 1024) :
    k0_pay3 (F := Ideal) a s b (ix2 p q) = a (ix2 p q) * s (ix2 (0 : Fin 1) q) + b (ix2 (0 : Fin 1) q) := by
  unfold k0_pay3
  simp only [shapeCast_self]
  show a (ix2 p q) * broadcastTo S2048x1024 s broadcasts_S1x1024_S2048x1024 (ix2 p q)
    + broadcastTo S2048x1024 b broadcasts_S1x1024_S2048x1024 (ix2 p q) = _
  rw [rowBroadcast_apply, rowBroadcast_apply]

end Cert.KernelIdeal.PointValue

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.Spec.lean ====
/-
  The specification, and the one law that joins the two programs.

  Flattened to rows, the layer is  Y(r, o) = (Σ_{k < 4096} X(r, k) · W(o, k)) · s(o) + b(o)  for the 8192 rows r of the
  input and the 4096 output features o (`affineRows`). The kernel reaches the inner sum tile by tile: grid point n
  (of 4 · 4 · 8 = 128, the last axis fastest) owns rows  (n / 32) · 2048 + p,  output features  (n / 8 mod 4) · 1024 + q
  and contraction positions  (n mod 8) · 512 + k,  and contributes the partial sum over its 512 positions
  (`tileTerm`). Eight consecutive points n = b, …, b + 7 with b a multiple of 8 share their rows and output features
  and their contraction blocks tile 0 … 4095, so their partial sums add up to the whole inner sum (`sum_tileTerms`):
  a sum over an axis of extent 8 · 512 is the sum over its 8 blocks of the sums over each block, which needs only
  that addition of extended reals is commutative and associative.
-/
import proofs.«177814_j84902913508067_2_alg».proof.Proof.LibBlockSum
import Idealize.ShloMosaic.Lib.ValueIdx
import Idealize.ShloMosaic.PureOps.Ideal

noncomputable section

open scoped BigOperators
open Idealize.ShloMosaic Idealize.ShloMosaic.ValueIdx

namespace SignLinear

/-- The flattened layer: row r, output feature o. -/
def affineRows (X : (⟨2, ![8192, 4096]⟩ : Shape).Idx → EReal) (W : (⟨2, ![4096, 4096]⟩ : Shape).Idx → EReal)
    (s b : (⟨2, ![1, 4096]⟩ : Shape).Idx → EReal) : (⟨2, ![8192, 4096]⟩ : Shape).Idx → EReal :=
  fun j => (∑ k : Fin 4096, X (ix2 (j 0) k) * W (ix2 (j 1) k)) * s (ix2 (0 : Fin 1) (j 1)) + b (ix2 (0 : Fin 1) (j 1))

/-- Row p of grid point n's row tile, as a row of the whole input. -/
def xRow (n : ℕ) (p : Fin 2048) : Fin 8192 := ⟨n / 32 % 4 * 2048 + p.val, by have := p.isLt; omega⟩
/-- Output feature q of grid point n's column tile. -/
def wRow (n : ℕ) (q : Fin 1024) : Fin 4096 := ⟨n / 8 % 4 * 1024 + q.val, by have := q.isLt; omega⟩
/-- Contraction position k of grid point n's contraction block. -/
def kCol (n : ℕ) (k : Fin 512) : Fin 4096 := ⟨n % 8 * 512 + k.val, by have := k.isLt; omega⟩

theorem xRow_val (n : ℕ) (p : Fin 2048) : (xRow n p).val = n / 32 % 4 * 2048 + p.val := rfl
theorem wRow_val (n : ℕ) (q : Fin 1024) : (wRow n q).val = n / 8 % 4 * 1024 + q.val := rfl
theorem kCol_val (n : ℕ) (k : Fin 512) : (kCol n k).val = n % 8 * 512 + k.val := rfl

/-- Grid point n's contribution to entry (p, q) of its tile. -/
def tileTerm (X : (⟨2, ![8192, 4096]⟩ : Shape).Idx → EReal) (W : (⟨2, ![4096, 4096]⟩ : Shape).Idx → EReal)
    (n : ℕ) (p : Fin 2048) (q : Fin 1024) : EReal :=
  ∑ k : Fin 512, X (ix2 (xRow n p) (kCol n k)) * W (ix2 (wRow n q) (kCol n k))

/-- The eight points of a run contribute, together, the whole inner sum of their rows and output features. -/
theorem sum_tileTerms (X : (⟨2, ![8192, 4096]⟩ : Shape).Idx → EReal) (W : (⟨2, ![4096, 4096]⟩ : Shape).Idx → EReal)
    (b : ℕ) (hb : b % 8 = 0) (p : Fin 2048) (q : Fin 1024) :
    ∑ s ∈ Finset.range 8, tileTerm X W (b + s) p q
      = ∑ k : Fin 4096, X (ix2 (xRow b p) k) * W (ix2 (wRow b q) k) := by
  rw [Finset.sum_range, sum_blockRows 8 512 (fun k : Fin 4096 => X (ix2 (xRow b p) k) * W (ix2 (wRow b q) k))]
  refine Finset.sum_congr rfl fun s _ => ?_
  unfold tileTerm
  refine Finset.sum_congr rfl fun k _ => ?_
  have hs := s.isLt
  have e1 : xRow (b + s.val) p = xRow b p := Fin.ext (by rw [xRow_val, xRow_val]; omega)
  have e2 : wRow (b + s.val) q = wRow b q := Fin.ext (by rw [wRow_val, wRow_val]; omega)
  have e3 : kCol (b + s.val) k = blockRow s k := Fin.ext (by rw [kCol_val, blockRow_val]; omega)
  rw [e1, e2, e3]

end SignLinear

end
-- ==== Proof.Blocks.lean ====
/-
  Where each block sits in its array.

  The grid is 4 × 4 × 8 with the last axis fastest, so point n has coordinates (n / 32, n / 8 mod 4, n mod 8). The left
  operand's [2048, 512] block at point n is rows (n / 32) · 2048 …, columns (n mod 8) · 512 … of the [8192, 4096] array;
  the right operand's [1024, 512] block is rows (n / 8 mod 4) · 1024 …, columns (n mod 8) · 512 … of the [4096, 4096]
  array; the scale and bias blocks are columns (n / 8 mod 4) · 1024 … of their [1, 4096] rows; and the output's
  [2048, 1024] block is rows (n / 32) · 2048 …, columns (n / 8 mod 4) · 1024 … of the [8192, 4096] result. A block read
  at an index inside it is the array read at the block's origin plus that index.
-/
import proofs.«177814_j84902913508067_2_alg».proof.Proof.Gen.KernelIdeal.Frame
import proofs.«177814_j84902913508067_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.PointValue

open Cert.KernelIdeal Cert.KernelIdeal.Gen SignLinear

variable {F : FTy → Type} [FloatOps F]
variable (m : (ℓ : Loc nD τ sig) → Buf (Elt F) ℓ)

/-- The printed index maps at point t, decided over the 128 points. -/
theorem index_facts : ∀ t : Fin cfg0.N,
    win0_0.index t (0 : Fin 2) = t.val / 32 % 4 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = t.val / 32 % 4 ∧ win0_4.index t (1 : Fin 2) = t.val / 8 % 4 :=
  (by decide +kernel : ∀ t : Fin grid0.N, _)

/-- The left operand's block at point t, at (p, k). -/
theorem xblock_apply (c : Dev nD) (t : Fin cfg0.N) (p : Fin 2048) (k : Fin 512) :
    (iblk m c 0 t : Vec F S2048x512 .f32) (ix2 p k) = V m c main_v0 (ix2 (xRow t.val p) (kCol t.val k)) := by
  obtain ⟨e0, e1, -⟩ := index_facts t
  unfold iblk
  rw [View.read_apply]
  show V m c main_v0 _ = V m c main_v0 _
  congr 1
  funext a
  apply Fin.ext
  match a with
  | ⟨0, _⟩ => show win0_0.index t 0 * 2048 + 1 * p.val = t.val / 32 % 4 * 2048 + p.val; rw [e0]; omega
  | ⟨1, _⟩ => show win0_0.index t 1 * 512 + 1 * k.val = t.val % 8 * 512 + k.val; rw [e1]; omega

/-- The right operand's block at point t, at (q, k). -/
theorem wblock_apply (c : Dev nD) (t : Fin cfg0.N) (q : Fin 1024) (k : Fin 512) :
    (iblk m c 1 t : Vec F S1024x512 .f32) (ix2 q k) = V m c main_arg1 (ix2 (wRow t.val q) (kCol t.val k)) := by
  obtain ⟨-, -, e0, e1, -⟩ := index_facts t
  unfold iblk
  rw [View.read_apply]
  show V m c main_arg1 _ = V m c main_arg1 _
  congr 1
  funext a
  apply Fin.ext
  match a with
  | ⟨0, _⟩ => show win0_1.index t 0 * 1024 + 1 * q.val = t.val / 8 % 4 * 1024 + q.val; rw [e0]; omega
  | ⟨1, _⟩ => show win0_1.index t 1 * 512 + 1 * k.val = t.val % 8 * 512 + k.val; rw [e1]; omega

/-- The scale row's block at point t, at (0, q). -/
theorem sblock_apply (c : Dev nD) (t : Fin cfg0.N) (q : Fin 1024) :
    (iblk m c 2 t : Vec F S1x1024 .f32) (ix2 (0 : Fin 1) q) = V m c main_v1 (ix2 (0 : Fin 1) (wRow t.val q)) := by
  obtain ⟨-, -, -, -, e0, e1, -⟩ := index_facts t
  unfold iblk
  rw [View.read_apply]
  show V m c main_v1 _ = V m c main_v1 _
  congr 1
  funext a
  apply Fin.ext
  match a with
  | ⟨0, _⟩ => show win0_2.index t 0 * 1 + 1 * 0 = 0; rw [e0]
  | ⟨1, _⟩ => show win0_2.index t 1 * 1024 + 1 * q.val = t.val / 8 % 4 * 1024 + q.val; rw [e1]; omega

/-- The bias row's block at point t, at (0, q). -/
theorem bblock_apply (c : Dev nD) (t : Fin cfg0.N) (q : Fin 1024) :
    (iblk m c 3 t : Vec F S1x1024 .f32) (ix2 (0 : Fin 1) q) = V m c main_v2 (ix2 (0 : Fin 1) (wRow t.val q)) := by
  obtain ⟨-, -, -, -, -, -, e0, e1, -⟩ := index_facts t
  unfold iblk
  rw [View.read_apply]
  show V m c main_v2 _ = V m c main_v2 _
  congr 1
  funext a
  apply Fin.ext
  match a with
  | ⟨0, _⟩ => show win0_3.index t 0 * 1 + 1 * 0 = 0; rw [e0]
  | ⟨1, _⟩ => show win0_3.index t 1 * 1024 + 1 * q.val = t.val / 8 % 4 * 1024 + q.val; rw [e1]; omega

/-- Index (p, q) of the output's block at point t is index (row, feature) of the result array. -/
theorem oblock_emb (t : Fin cfg0.N) (p : Fin 2048) (q : Fin 1024) :
    ((cfg0.win 4).blk t).view.emb (ix2 p q) = ix2 (xRow t.val p) (wRow t.val q) := by
  obtain ⟨-, -, -, -, -, -, -, -, e0, e1⟩ := index_facts t
  funext a
  apply Fin.ext
  match a with
  | ⟨0, _⟩ => show win0_4.index t 0 * 2048 + 1 * p.val = t.val / 32 % 4 * 2048 + p.val; rw [e0]; omega
  | ⟨1, _⟩ => show win0_4.index t 1 * 1024 + 1 * q.val = t.val / 8 % 4 * 1024 + q.val; rw [e1]; omega

end Cert.KernelIdeal.PointValue

end
-- ==== Proof.Accum.lean ====
/-
  The accumulator over a run of eight points, and the output block it ends in.

  Along the grid the accumulator is a fold: at a point whose number is a multiple of 8 it restarts at one step from
  zero, at every other point it is one step from what the point before left. Over the extended reals a step adds the
  point's partial inner sum, so after the point numbered 8a + j the accumulator holds, at (p, q), the sum of the partial
  sums of points 8a, …, 8a + j. At the last point of the run (j = 7) these are all eight blocks of the contraction axis:
  the whole inner sum of the point's rows and output features; the output block written there is that sum times the
  scale plus the bias — the flattened layer at the block's place in the result.
-/
import proofs.«177814_j84902913508067_2_alg».proof.Proof.CaseValues
import proofs.«177814_j84902913508067_2_alg».proof.Proof.Payload
import proofs.«177814_j84902913508067_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.PointValue

open Cert.KernelIdeal Cert.KernelIdeal.Gen SignLinear

section AnyFloats

variable {F : FTy → Type} [FloatOps F]
variable (m : (ℓ : Loc nD τ sig) → Buf (Elt F) ℓ)

/-- The accumulator after a point that starts a run: one step from zero, on the point's blocks. -/
def restartAt (c : Dev nD) (n : ℕ) (h : n < cfg0.N) : Vec F S2048x1024 .f32 :=
  k0_pay2 (iblk m c 0 ⟨n, h⟩) (iblk m c 1 ⟨n, h⟩) (k0_pay1 (F := F))

/-- The accumulator after any other point: one step, on the point's blocks, from what it held. -/
def advanceAt (c : Dev nD) (n : ℕ) (h : n < cfg0.N) (acc : Vec F S2048x1024 .f32) : Vec F S2048x1024 .f32 :=
  k0_pay2 (iblk m c 0 ⟨n, h⟩) (iblk m c 1 ⟨n, h⟩) acc

theorem acc_restart (c : Dev nD) (n : ℕ) (h : n < cfg0.N) (h0 : n % 8 = 0) :
    (outsAt0 m c n h).2 = restartAt m c n h := by
  have h1 : ¬(⟨n, h⟩ : Fin cfg0.N).val % 8 = 7 := by dsimp only; omega
  unfold restartAt
  rw [outsAt0_A m c ⟨n, h⟩ h0 h1]
  dsimp only
  exact acc_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

theorem acc_advance (c : Dev nD) (n : ℕ) (h : n + 1 < cfg0.N) (h0 : ¬(n + 1) % 8 = 0) :
    (outsAt0 m c (n + 1) h).2 = advanceAt m c (n + 1) h (outsAt0 m c n (Nat.lt_of_succ_lt h)).2 := by
  unfold advanceAt
  by_cases h1 : (n + 1) % 8 = 7
  · rw [outsAt0_C m c ⟨n + 1, h⟩ h0 h1]
    dsimp only
    exact acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩)
      (outsAt0 m c n (Nat.lt_of_succ_lt h)).2
  · rw [outsAt0_B m c ⟨n + 1, h⟩ h0 h1]
    dsimp only
    exact acc_inner c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
      (outsAt0 m c n (Nat.lt_of_succ_lt h)).2

/-- At the last point of a run the output block is the accumulator that point leaves, finished with the point's scale and
    bias blocks. -/
theorem out_at_last (c : Dev nD) (t : Fin cfg0.N) (h1 : t.val % 8 = 7) :
    (outsAt0 m c t.val t.isLt).1 = k0_pay3 (outsAt0 m c t.val t.isLt).2 (iblk m c 2 t) (iblk m c 3 t) := by
  have h0 : ¬t.val % 8 = 0 := by omega
  have e := outsAt0_C m c t h0 h1
  rw [e]
  dsimp only
  rw [acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t)
        (outsAt0 m c (t.val - 1) (Nat.lt_of_le_of_lt (Nat.sub_le _ _) t.isLt)).2]
  exact out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t)
        (outsAt0 m c (t.val - 1) (Nat.lt_of_le_of_lt (Nat.sub_le _ _) t.isLt)).2

end AnyFloats

section ExtendedReals

variable (m : (ℓ : Loc nD τ sig) → Buf (Elt Ideal) ℓ)

/-- A step on point n's blocks adds point n's partial inner sum. -/
theorem advanceAt_apply (c : Dev nD) (n : ℕ) (h : n < cfg0.N) (acc : Vec Ideal S2048x1024 .f32) (i : S2048x1024.Idx) :
    advanceAt m c n h acc i = acc i + tileTerm (V m c main_v0) (V m c main_arg1) n (i 0) (i 1) := by
  obtain ⟨p, q, rfl⟩ : ∃ (p : Fin 2048) (q : Fin 1024), i = ix2 p q := ⟨i 0, i 1, eq_ix2 i⟩
  unfold advanceAt
  refine (step_apply (iblk m c 0 ⟨n, h⟩) (iblk m c 1 ⟨n, h⟩) acc p q).trans ?_
  refine congrArg (acc (ix2 p q) + ·) ?_
  unfold tileTerm
  refine Finset.sum_congr rfl fun k _ => ?_
  exact congrArg₂ (· * ·) (xblock_apply m c ⟨n, h⟩ p k) (wblock_apply m c ⟨n, h⟩ q k)

theorem restartAt_apply (c : Dev nD) (n : ℕ) (h : n < cfg0.N) (i : S2048x1024.Idx) :
    restartAt m c n h i = 0 + tileTerm (V m c main_v0) (V m c main_arg1) n (i 0) (i 1) := by
  have e := advanceAt_apply m c n h (k0_pay1 (F := Ideal)) i
  rw [reset_apply] at e
  exact e

/-- After point t the accumulator holds the partial sums of its run's points up to t. -/
theorem acc_apply (c : Dev nD) (t : Fin cfg0.N) (i : S2048x1024.Idx) :
    (outsAt0 m c t.val t.isLt).2 i
      = 0 + ∑ s ∈ Finset.range (t.val % 8 + 1), tileTerm (V m c main_v0) (V m c main_arg1) (8 * (t.val / 8) + s) (i 0) (i 1) := by
  have hb : 8 * (t.val / 8) + t.val % 8 < cfg0.N := by rw [Nat.div_add_mod]; exact t.isLt
  have e := Pipeline.eq_accAt_of_mod (fun n h => (outsAt0 m c n h).2) 8 (restartAt m c) (advanceAt m c)
    (fun n h h0 => acc_restart m c n h h0) (fun n h h0 => acc_advance m c n h h0) (by norm_num) t.val t.isLt hb
  refine (congrFun e i).trans ?_
  exact Pipeline.accAt_add_apply (ι := S2048x1024.Idx) (β := EReal) (restartAt m c) (advanceAt m c) (fun _ => 0)
    (fun n i => tileTerm (V m c main_v0) (V m c main_arg1) n (i 0) (i 1)) (8 * (t.val / 8)) 7
    (fun h i => restartAt_apply m c _ h i) (fun n h acc i _ _ => advanceAt_apply m c n h acc i)
    (t.val % 8) (by omega) hb i

/-- The output block written at the last point t of a run, at (p, q): the flattened layer at the block's place. -/
theorem out_apply (c : Dev nD) (t : Fin cfg0.N) (h1 : t.val % 8 = 7) (p : Fin 2048) (q : Fin 1024) :
    (outsAt0 m c t.val t.isLt).1 (ix2 p q)
      = affineRows (V m c main_v0) (V m c main_arg1) (V m c main_v1) (V m c main_v2) (ix2 (xRow t.val p) (wRow t.val q)) := by
  rw [out_at_last m c t h1]
  refine (finish_apply (outsAt0 m c t.val t.isLt).2 (iblk m c 2 t) (iblk m c 3 t) p q).trans ?_
  rw [acc_apply m c t (ix2 p q), h1, zero_add]
  have hb : 8 * (t.val / 8) % 8 = 0 := Nat.mul_mod_right 8 _
  have hs := sum_tileTerms (V m c main_v0) (V m c main_arg1) (8 * (t.val / 8)) hb p q
  have ex : xRow (8 * (t.val / 8)) p = xRow t.val p := Fin.ext (by rw [xRow_val, xRow_val]; omega)
  have ew : wRow (8 * (t.val / 8)) q = wRow t.val q := Fin.ext (by rw [wRow_val, wRow_val]; omega)
  rw [ex, ew] at hs
  unfold affineRows
  show (∑ s ∈ Finset.range (7 + 1), tileTerm (V m c main_v0) (V m c main_arg1) (8 * (t.val / 8) + s) p q) * _ + _ = _
  rw [hs]
  exact congrArg₂ (· + ·) (congrArg (_ * ·) (sblock_apply m c t q)) (bblock_apply m c t q)

end ExtendedReals

end Cert.KernelIdeal.PointValue

end
-- ==== Proof.Layer.lean ====
/-
  The layer on the unflattened arrays, and its flattened form.

  `layer x w s b` at (a, r, o) is  (Σ_{k < 4096} x(a, r, k) · w(o, k)) · s(o) + b(o)  for x of shape [4, 2048, 4096].
  Reading x as [8192, 4096] by rows (row a · 2048 + r), s and b as [1, 4096], applying the flattened layer and reading
  the result back as [4, 2048, 4096] gives the same numbers: a reshape keeps row-major positions.
-/
import proofs.«177814_j84902913508067_2_alg».proof.Proof.Spec
import Idealize.ShloMosaic.Lib.Pipeline.Value

noncomputable section

open scoped BigOperators
open Idealize.ShloMosaic Idealize.ShloMosaic.ValueIdx

namespace SignLinear

/-- The layer, index by index. -/
def layer (x : (⟨3, ![4, 2048, 4096]⟩ : Shape).Idx → EReal) (w : (⟨2, ![4096, 4096]⟩ : Shape).Idx → EReal)
    (s b : (⟨1, ![4096]⟩ : Shape).Idx → EReal) : (⟨3, ![4, 2048, 4096]⟩ : Shape).Idx → EReal :=
  fun i => (∑ k : Fin 4096, x (ix3 (i 0) (i 1) k) * w (ix2 (i 2) k)) * s (ix1 (i 2)) + b (ix1 (i 2))

/-- Flatten, apply the flattened layer, unflatten: the layer. -/
theorem unflatten_affineRows (x : (⟨3, ![4, 2048, 4096]⟩ : Shape).Idx → EReal) (w : (⟨2, ![4096, 4096]⟩ : Shape).Idx → EReal)
    (s b : (⟨1, ![4096]⟩ : Shape).Idx → EReal)
    (hx : (⟨3, ![4, 2048, 4096]⟩ : Shape).ShapeCasts ⟨2, ![8192, 4096]⟩)
    (hs : (⟨1, ![4096]⟩ : Shape).ShapeCasts ⟨2, ![1, 4096]⟩)
    (hy : (⟨2, ![8192, 4096]⟩ : Shape).ShapeCasts ⟨3, ![4, 2048, 4096]⟩) :
    shapeCast ⟨3, ![4, 2048, 4096]⟩
        (affineRows (shapeCast ⟨2, ![8192, 4096]⟩ x hx) w (shapeCast ⟨2, ![1, 4096]⟩ s hs) (shapeCast ⟨2, ![1, 4096]⟩ b hs)) hy
      = layer x w s b := by
  funext i
  have hi0 : (i 0).val < 4 := (i 0).isLt
  have hi1 : (i 1).val < 2048 := (i 1).isLt
  obtain ⟨r, hr⟩ : ∃ r : Fin 8192, r.val = (i 0).val * 2048 + (i 1).val := ⟨⟨(i 0).val * 2048 + (i 1).val, by omega⟩, rfl⟩
  rw [shapeCast_apply _ hy i (ix2 r (i 2)) (by
    rw [Shape.rowMajor_val_two, Shape.rowMajor_val_three]
    show r.val * 4096 + (i 2).val = ((i 0).val * 2048 + (i 1).val) * 4096 + (i 2).val
    rw [hr])]
  have ex : ∀ k : Fin 4096, shapeCast ⟨2, ![8192, 4096]⟩ x hx (ix2 r k) = x (ix3 (i 0) (i 1) k) := fun k =>
    shapeCast_apply x hx (ix2 r k) (ix3 (i 0) (i 1) k) (by
      rw [Shape.rowMajor_val_two, Shape.rowMajor_val_three]
      show ((i 0).val * 2048 + (i 1).val) * 4096 + k.val = r.val * 4096 + k.val
      rw [hr])
  have es : ∀ v : (⟨1, ![4096]⟩ : Shape).Idx → EReal,
      shapeCast ⟨2, ![1, 4096]⟩ v hs (ix2 (0 : Fin 1) (i 2)) = v (ix1 (i 2)) := fun v =>
    shapeCast_apply v hs (ix2 (0 : Fin 1) (i 2)) (ix1 (i 2)) (by
      rw [Shape.rowMajor_val_two, Shape.rowMajor_val_one]
      show (i 2).val = 0 * 4096 + (i 2).val
      omega)
  unfold affineRows layer
  show (∑ k : Fin 4096, shapeCast ⟨2, ![8192, 4096]⟩ x hx (ix2 r k) * w (ix2 (i 2) k))
      * shapeCast ⟨2, ![1, 4096]⟩ s hs (ix2 (0 : Fin 1) (i 2)) + shapeCast ⟨2, ![1, 4096]⟩ b hs (ix2 (0 : Fin 1) (i 2)) = _
  rw [es s, es b]
  simp only [ex]

end SignLinear

end
-- ==== Proof.Final.lean ====
/-
  From the output blocks to the result array, and through the reshapes around the region.

  The output block is written back exactly at the last point of each run of eight, and there it is the flattened layer
  restricted to the block (rows (t / 32) · 2048 …, output features (t / 8 mod 4) · 1024 …). Every entry (r, o) of the
  [8192, 4096] result lies in the block of the point 32 · (r / 2048) + 8 · (o / 1024) + 7, so after the run the whole
  array is the flattened layer of the arrays the region found. Those are the input reshaped to [8192, 4096], the weight
  matrix as given, and scale and bias reshaped to [1, 4096]; the program's last line reshapes the result to
  [4, 2048, 4096]: by `unflatten_affineRows` the program's result is the layer of its four arguments.
-/
import proofs.«177814_j84902913508067_2_alg».proof.Proof.Accum
import proofs.«177814_j84902913508067_2_alg».proof.Proof.Layer
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.PointValue

open Cert.KernelIdeal Cert.KernelIdeal.Gen SignLinear

variable (m : (ℓ : Loc nD τ sig) → Buf (Elt Ideal) ℓ) (ρ : Dev nD → PrngReg)

/-- The flattened layer of the arrays the region finds. -/
abbrev regionResult (c : Dev nD) : S8192x4096.Idx → EReal :=
  affineRows (V m c main_v0) (V m c main_arg1) (V m c main_v1) (V m c main_v2)

/-- What a last point of a run writes back is its block of the flattened layer. -/
theorem flushed_eq (c : Dev nD) (t : Fin cfg0.N) (hf : (cfg0.win 4).flush t = true) :
    (dats m 0 c).flushed 4 t = ((cfg0.win 4).blk t).view.read (Elt Ideal) (regionResult m c) := by
  have h1 : t.val % 8 = 7 := (flush0_4 t).mp hf
  show (cfg0.win 4).cut (grid0.coords t) ((dats m 0 c).after 4 t) = _
  rw [after0_4]
  refine funext fun (y : S2048x1024.Idx) => ?_
  obtain ⟨p, q, rfl⟩ : ∃ (p : Fin 2048) (q : Fin 1024), y = ix2 p q := ⟨y 0, y 1, eq_ix2 y⟩
  show (outsAt0 m c t.val t.isLt).1 (ix2 p q) = regionResult m c (((cfg0.win 4).blk t).view.emb (ix2 p q))
  rw [oblock_emb]
  exact out_apply m c t h1 p q

/-- An index of the result array is in point t's block iff each coordinate is in the block's range. -/
theorem mem_oblock (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v3).slice (win0_4.rect t)).set ↔ _
  rw [View.set_slice_whole, Rect.mem_set_unit]
  exact Iff.rfl

/-- Every entry of the result is written back by the last point of its tile's run. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 32 * ((i 0).val / 2048) + 8 * ((i 1).val / 1024) + 7 :=
    ⟨⟨32 * ((i 0).val / 2048) + 8 * ((i 1).val / 1024) + 7, by rw [hN]; omega⟩, rfl⟩
  obtain ⟨-, -, -, -, -, -, -, -, e0, e1⟩ := index_facts t
  refine ⟨t, (flush0_4 t).mpr (by omega), ?_⟩
  rw [mem_oblock]
  intro a
  match a with
  | ⟨0, _⟩ =>
    show win0_4.index t 0 * 2048 ≤ (i 0).val ∧ (i 0).val < win0_4.index t 0 * 2048 + 2048
    rw [e0]; omega
  | ⟨1, _⟩ =>
    show win0_4.index t 1 * 1024 ≤ (i 1).val ∧ (i 1).val < win0_4.index t 1 * 1024 + 1024
    rw [e1]; omega

/-- After the run the result array is the flattened layer of the arrays the region found. -/
theorem final (c : Dev nD) : (dats m 0 c).arrAt 4 cfg0.N = regionResult m c :=
  (dats m 0 c).arrAt_eq_of_cover 4 (regionResult m c) (flushed_eq m c) covered

/-- The three reshapes before the region. -/
theorem found_x (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl
theorem found_s (c : Dev nD) : (V m c main_v1 : S1x4096.Idx → EReal)
    = shapeCast S1x4096 (m ((c : Thread nD τ).loc main_arg2)) shapeCasts_S4096_S1x4096 := by
  show StableHlo.after hostOps0 (fun b => m (c, b)) (Proc.devRef .tc main_v1) = _
  after_results
  rfl
theorem found_b (c : Dev nD) : (V m c main_v2 : S1x4096.Idx → EReal)
    = shapeCast S1x4096 (m ((c : Thread nD τ).loc main_arg3)) shapeCasts_S4096_S1x4096 := by
  show StableHlo.after hostOps0 (fun b => m (c, b)) (Proc.devRef .tc main_v2) = _
  after_results
  rfl

/-- The program's result: the reshape after the region applied to the result array. -/
theorem result_eq (c : Dev nD) :
    Pipeline.afterTail₀ cfgs (dats m) 0 (V0 m) [hostOps1] c main_v4
      = layer (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  show shapeCast S4x2048x4096
      (Pipeline.withArrays (cfgs 0).spec c (V0 m c) (fun w => (dats m 0 c).arrAt w (cfgs 0).N) (Proc.devRef .tc main_v3))
      shapeCasts_S8192x4096_S4x2048x4096 = _
  have hw : Pipeline.withArrays (cfgs 0).spec c (V0 m c) (fun w => (dats m 0 c).arrAt w (cfgs 0).N) (Proc.devRef .tc main_v3)
      = regionResult m c :=
    (Pipeline.withArrays_arr spec0 launch0.win.arr_inj c _ _ 4).trans (final m c)
  rw [hw]
  unfold regionResult
  rw [found_x m c, found_s m c, found_b m c, V_main_arg1 m c]
  exact unflatten_affineRows _ _ _ _ shapeCasts_S4x2048x4096_S8192x4096 shapeCasts_S4096_S1x4096
    shapeCasts_S8192x4096_S4x2048x4096

/-- The kernel program's run, read: its result is the layer of its arguments, which end unchanged. -/
theorem run : θ_run defs (onTc (τ := τ) (main (F := Ideal))) ⟨m, fun _ => 0, ρ⟩ fun r => ∀ c : Dev nD,
      r.2.mem ((c.tc : Thread nD τ).loc main_v4)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.PointValue

end
-- ==== Proof.RefSide.lean ====
/-
  The reference computes the layer.

  Its seven operations are one contraction of x's last axis with w's last axis, two broadcasts each of the scale and the
  bias along the first two axes, one multiplication and one addition. Read at an index (a, r, o) over the extended reals
  the contraction is Σ_k x(a, r, k) · w(o, k) and each broadcast reads its vector at o: the layer.
-/
import proofs.«177814_j84902913508067_2_alg».proof.Defs
import proofs.«177814_j84902913508067_2_alg».proof.Proof.Gen.ReferenceIdeal.Run
import proofs.«177814_j84902913508067_2_alg».proof.Proof.Gen.ReferenceIdeal.Read
import proofs.«177814_j84902913508067_2_alg».proof.Proof.Layer

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read SignLinear

theorem reference_eq_layer (x0 : (⟨S4x2048x4096, .f32⟩ : BufTy).Contents (Elt Ideal))
    (x1 : (⟨S4096x4096, .f32⟩ : BufTy).Contents (Elt Ideal)) (x2 x3 : (⟨S4096, .f32⟩ : BufTy).Contents (Elt Ideal)) :
    val_main_v6 (F := Ideal) x0 x1 x2 x3 = layer x0 x1 x2 x3 := by
  funext i
  have e1 : ∀ k : Fin 4096, lidx_main_v0 i k = ix3 (i 0) (i 1) k := fun k => funext fun a => Fin.ext (by
    match a with
    | ⟨0, _⟩ => rfl
    | ⟨1, _⟩ => rfl
    | ⟨2, _⟩ => rfl)
  have e2 : ∀ k : Fin 4096, ridx_main_v0 i k = ix2 (i 2) k := fun k => funext fun a => Fin.ext (by
    match a with
    | ⟨0, _⟩ => rfl
    | ⟨1, _⟩ => rfl)
  have e3 : idx_main_v1 (idx_main_v2 i) = ix1 (i 2) := funext fun a => Fin.ext (by
    match a with
    | ⟨0, _⟩ => rfl)
  have e4 : idx_main_v4 (idx_main_v5 i) = ix1 (i 2) := funext fun a => Fin.ext (by
    match a with
    | ⟨0, _⟩ => rfl)
  rw [val_main_v6_apply, val_main_v3_apply, val_main_v0_apply, val_main_v2_apply, val_main_v1_apply,
    val_main_v5_apply, val_main_v4_apply]
  simp only [e1, e2, e3, e4]
  rfl

end Cert.ReferenceIdeal.RefValue

end
-- ==== Proof.lean ====
/-
  The kernel computes  y = (x · signᵀ) · scale + bias  for x of shape [4, 2048, 4096], a [4096, 4096] sign matrix and
  scale and bias vectors of length 4096, and so does the reference; over the extended reals they agree exactly.

  The reference is one contraction, two broadcasts, a product and a sum: at (a, r, o) it is
  (Σ_{k < 4096} x(a, r, k) · sign(o, k)) · scale(o) + bias(o) (Proof/RefSide.lean). The kernel flattens x to 8192 rows,
  walks a 4 × 4 × 8 grid of [2048, 1024] output tiles by blocks of 512 of the contraction axis, adds each block's partial
  product into an accumulator (the narrowing of the operands to bf16 is the identity on extended reals), and at the last
  block of a tile writes accumulator · scale + bias. The eight partial sums of a tile are the sums over the eight blocks
  that tile the contraction axis, so together they are the whole inner sum (Proof/Spec.lean: only commutativity and
  associativity of addition are used, so no finiteness of the inputs is needed); the tiles cover the result
  (Proof/Final.lean); and the reshapes around the region keep row-major positions (Proof/Layer.lean).

  The three frame claims: the two kernel programs' by their generated frames, the reference's by its generated run. The
  idealization rewrote nothing, so it preserves the kernel trivially.
-/
import proofs.«177814_j84902913508067_2_alg».proof.Defs
import proofs.«177814_j84902913508067_2_alg».proof.Proof.Gen.Kernel
import proofs.«177814_j84902913508067_2_alg».proof.Proof.Gen.Kernel.Skeleton
import proofs.«177814_j84902913508067_2_alg».proof.Proof.Gen.Kernel.Launch
import proofs.«177814_j84902913508067_2_alg».proof.Proof.Gen.Kernel.Points
import proofs.«177814_j84902913508067_2_alg».proof.Proof.Gen.Kernel.Frame
import proofs.«177814_j84902913508067_2_alg».proof.Proof.Gen.KernelIdeal
import proofs.«177814_j84902913508067_2_alg».proof.Proof.Gen.KernelIdeal.Skeleton
import proofs.«177814_j84902913508067_2_alg».proof.Proof.Gen.KernelIdeal.Launch
import proofs.«177814_j84902913508067_2_alg».proof.Proof.Gen.KernelIdeal.Points
import proofs.«177814_j84902913508067_2_alg».proof.Proof.Gen.KernelIdeal.Frame
import proofs.«177814_j84902913508067_2_alg».proof.Proof.Gen.ReferenceIdeal
import proofs.«177814_j84902913508067_2_alg».proof.Proof.Gen.ReferenceIdeal.Run
import proofs.«177814_j84902913508067_2_alg».proof.Proof.Gen.ReferenceIdeal.Read
import proofs.«177814_j84902913508067_2_alg».proof.Proof.Gen.Pre_finite_inputs
import proofs.«177814_j84902913508067_2_alg».proof.Proof.Final
import proofs.«177814_j84902913508067_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of their (agreeing) arguments in their result. -/
theorem algebraic : Cert.algebraic_KernelIdeal_ReferenceIdeal := by
  intro m ρ m' ρ' _ hagree
  refine ⟨fun c => SignLinear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.PointValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
